-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : FVec F S1600000x16 .f32) (main_arg3 : IVec S100000 32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S2000x128 : Shape := ⟨2, ![2000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 133
  | .vmem => 14
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S100000, .i32⟩
  | 68 => ⟨S1700000, .i32⟩
  | 69 => ⟨S1700000, .i32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S100000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S512x128, .f32⟩
  | 117 => ⟨S100000x1, .i32⟩
  | 118 => ⟨S512x128, .f32⟩
  | 119 => ⟨S_, .f32⟩
  | 120 => ⟨S100000, .f32⟩
  | 121 => ⟨S_, .f32⟩
  | 122 => ⟨S512, .f32⟩
  | 123 => ⟨S100000x1, .i32⟩
  | 124 => ⟨S512, .f32⟩
  | 125 => ⟨S_, .f32⟩
  | 126 => ⟨S512, .f32⟩
  | 127 => ⟨S512, .f32⟩
  | _ => ⟨S100000x128, .f32⟩

abbrev hbmTy0_1 (i : Nat) : BufTy := match i % 128 with
  | 0 => ⟨S512x1, .f32⟩
  | 1 => ⟨S512x128, .f32⟩
  | 2 => ⟨S512x128, .f32⟩
  | 3 => ⟨S1x1, .f32⟩
  | 4 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S512x128, .f32⟩
  | .local _ .vmem, ⟨11, _⟩ => ⟨S128x1, .f32⟩
  | .local _ .vmem, ⟨12, _⟩ => ⟨S1x1, .f32⟩
  | .local _ .vmem, ⟨13, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S512x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S100000, .i32⟩
  | 68 => ⟨S1700000, .i32⟩
  | 69 => ⟨S1700000, .i32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S100000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S512x128, .f32⟩
  | 117 => ⟨S100000x1, .i32⟩
  | 118 => ⟨S512x128, .f32⟩
  | 119 => ⟨S_, .f32⟩
  | 120 => ⟨S100000, .f32⟩
  | 121 => ⟨S_, .f32⟩
  | 122 => ⟨S512, .f32⟩
  | 123 => ⟨S100000x1, .i32⟩
  | 124 => ⟨S512, .f32⟩
  | 125 => ⟨S_, .f32⟩
  | 126 => ⟨S512, .f32⟩
  | 127 => ⟨S512, .f32⟩
  | _ => ⟨S100000x128, .f32⟩

abbrev hbmTy0_1 (i : Nat) : BufTy := match i % 128 with
  | 0 => ⟨S512x1, .f32⟩
  | 1 => ⟨S512x128, .f32⟩
  | 2 => ⟨S512x128, .f32⟩
  | 3 => ⟨S512x1, .f32⟩
  | 4 => ⟨S1x1, .f32⟩
  | 5 => ⟨S512x1, .f32⟩
  | 6 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.ValueRun.lean ====
/-
  The idealized kernel's run with its result kept.

  @main is three kernel regions among stretches of host operations.  The launch theorem for such a program
  (Lib/Pipeline/Regions.lean) runs the generated list of segments from the launch memory and ends with every
  unscoped buffer of a core at the last boundary's contents: the fold `W7` of the generated frame module — the
  launch memory pushed through the first stretch, region 0's write-backs, the next two stretches, region 1's
  write-backs, the last stretch and region 2's write-backs.  Reading that final state at the result buffer as
  well as at the ten arguments gives the run below: every weakly fair execution terminates, the result buffer
  holds `W7` at the result, and the arguments are as launched.
-/
import proofs.«159208_j17463337025660_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents `W7`, and every argument array ends as launched. -/
theorem run : θ_run defs (onTc (τ := τ) (main (F := F))) ⟨m, fun _ => 0, ρ⟩ (fun r => ∀ c : Dev nD,
      r.2.mem ((c.tc : Thread nD τ).loc main_v98) = W7 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v98 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.ValueRun

end
-- ==== Proof.Carried.lean ====
/-
  What the host stretches and the regions leave untouched.

  The edge lists (the two rows of the edge-index array, each reshaped to a vector) are computed by the first
  stretch and read again by both later stretches; no later stretch and no region writes them, nor any
  argument array.  So at every later boundary of the run these buffers still hold what the first stretch
  left: the reference's own first four stages of the edge-index argument, and the argument arrays as launched.
-/
import proofs.«159208_j17463337025660_1_alg».proof.Proof.Gen.KernelIdeal.Frame
import proofs.«159208_j17463337025660_1_alg».proof.Proof.Gen.ReferenceIdeal.Read
import Idealize.ShloMosaic.Lib.StableHlo.Run

set_option maxRecDepth 16384

noncomputable section

namespace Cert.KernelIdeal.Carried

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## The two edge lists -/

theorem at1_src : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  try rfl
theorem at2_src : W2 m ρ c (Proc.devRef .tc main_v1) = Cert.ReferenceIdeal.Read.val_main_v1 (F := Ideal) (m ((c : Thread nD τ).loc main_arg1)) :=
  (W2_of_ne m ρ c main_v1 (by decide)).trans (at1_src m ρ c)
theorem at4_src : W4 m ρ c (Proc.devRef .tc main_v1) = Cert.ReferenceIdeal.Read.val_main_v1 (F := Ideal) (m ((c : Thread nD τ).loc main_arg1)) := by
  show StableHlo.after hostOps1_1 (StableHlo.after hostOps1 (W2 m ρ c)) (Proc.devRef .tc main_v1) = _
  after_results_simp
  exact at2_src m ρ c
theorem at5_src : W5 m ρ c (Proc.devRef .tc main_v1) = Cert.ReferenceIdeal.Read.val_main_v1 (F := Ideal) (m ((c : Thread nD τ).loc main_arg1)) :=
  (W5_of_ne m ρ c main_v1 (by decide)).trans (at4_src m ρ c)

theorem at1_dst : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  try rfl
theorem at2_dst : W2 m ρ c (Proc.devRef .tc main_v3) = Cert.ReferenceIdeal.Read.val_main_v3 (F := Ideal) (m ((c : Thread nD τ).loc main_arg1)) :=
  (W2_of_ne m ρ c main_v3 (by decide)).trans (at1_dst m ρ c)
theorem at4_dst : W4 m ρ c (Proc.devRef .tc main_v3) = Cert.ReferenceIdeal.Read.val_main_v3 (F := Ideal) (m ((c : Thread nD τ).loc main_arg1)) := by
  show StableHlo.after hostOps1_1 (StableHlo.after hostOps1 (W2 m ρ c)) (Proc.devRef .tc main_v3) = _
  after_results_simp
  exact at2_dst m ρ c
theorem at5_dst : W5 m ρ c (Proc.devRef .tc main_v3) = Cert.ReferenceIdeal.Read.val_main_v3 (F := Ideal) (m ((c : Thread nD τ).loc main_arg1)) :=
  (W5_of_ne m ρ c main_v3 (by decide)).trans (at4_dst m ρ c)

/-! ## The argument arrays, each up to the last boundary that reads it -/

theorem at1_arg0 : W1 m ρ c (Proc.devRef .tc main_arg0) = (m ((c : Thread nD τ).loc main_arg0)) := by
  show StableHlo.after hostOps0 (W0 m ρ c) (Proc.devRef .tc main_arg0) = _
  after_results_simp
  try rfl

theorem at1_arg4 : W1 m ρ c (Proc.devRef .tc main_arg4) = (m ((c : Thread nD τ).loc main_arg4)) := by
  show StableHlo.after hostOps0 (W0 m ρ c) (Proc.devRef .tc main_arg4) = _
  after_results_simp
  try rfl

theorem at1_arg5 : W1 m ρ c (Proc.devRef .tc main_arg5) = (m ((c : Thread nD τ).loc main_arg5)) := by
  show StableHlo.after hostOps0 (W0 m ρ c) (Proc.devRef .tc main_arg5) = _
  after_results_simp
  try rfl
theorem at2_arg5 : W2 m ρ c (Proc.devRef .tc main_arg5) = (m ((c : Thread nD τ).loc main_arg5)) :=
  (W2_of_ne m ρ c main_arg5 (by decide)).trans (at1_arg5 m ρ c)

theorem at1_arg6 : W1 m ρ c (Proc.devRef .tc main_arg6) = (m ((c : Thread nD τ).loc main_arg6)) := by
  show StableHlo.after hostOps0 (W0 m ρ c) (Proc.devRef .tc main_arg6) = _
  after_results_simp
  try rfl
theorem at2_arg6 : W2 m ρ c (Proc.devRef .tc main_arg6) = (m ((c : Thread nD τ).loc main_arg6)) :=
  (W2_of_ne m ρ c main_arg6 (by decide)).trans (at1_arg6 m ρ c)
theorem at4_arg6 : W4 m ρ c (Proc.devRef .tc main_arg6) = (m ((c : Thread nD τ).loc main_arg6)) := by
  show StableHlo.after hostOps1_1 (StableHlo.after hostOps1 (W2 m ρ c)) (Proc.devRef .tc main_arg6) = _
  after_results_simp
  exact at2_arg6 m ρ c

theorem at1_arg3 : W1 m ρ c (Proc.devRef .tc main_arg3) = (m ((c : Thread nD τ).loc main_arg3)) := by
  show StableHlo.after hostOps0 (W0 m ρ c) (Proc.devRef .tc main_arg3) = _
  after_results_simp
  try rfl
theorem at2_arg3 : W2 m ρ c (Proc.devRef .tc main_arg3) = (m ((c : Thread nD τ).loc main_arg3)) :=
  (W2_of_ne m ρ c main_arg3 (by decide)).trans (at1_arg3 m ρ c)
theorem at4_arg3 : W4 m ρ c (Proc.devRef .tc main_arg3) = (m ((c : Thread nD τ).loc main_arg3)) := by
  show StableHlo.after hostOps1_1 (StableHlo.after hostOps1 (W2 m ρ c)) (Proc.devRef .tc main_arg3) = _
  after_results_simp
  exact at2_arg3 m ρ c
theorem at5_arg3 : W5 m ρ c (Proc.devRef .tc main_arg3) = (m ((c : Thread nD τ).loc main_arg3)) :=
  (W5_of_ne m ρ c main_arg3 (by decide)).trans (at4_arg3 m ρ c)

theorem at1_arg7 : W1 m ρ c (Proc.devRef .tc main_arg7) = (m ((c : Thread nD τ).loc main_arg7)) := by
  show StableHlo.after hostOps0 (W0 m ρ c) (Proc.devRef .tc main_arg7) = _
  after_results_simp
  try rfl
theorem at2_arg7 : W2 m ρ c (Proc.devRef .tc main_arg7) = (m ((c : Thread nD τ).loc main_arg7)) :=
  (W2_of_ne m ρ c main_arg7 (by decide)).trans (at1_arg7 m ρ c)
theorem at4_arg7 : W4 m ρ c (Proc.devRef .tc main_arg7) = (m ((c : Thread nD τ).loc main_arg7)) := by
  show StableHlo.after hostOps1_1 (StableHlo.after hostOps1 (W2 m ρ c)) (Proc.devRef .tc main_arg7) = _
  after_results_simp
  exact at2_arg7 m ρ c
theorem at5_arg7 : W5 m ρ c (Proc.devRef .tc main_arg7) = (m ((c : Thread nD τ).loc main_arg7)) :=
  (W5_of_ne m ρ c main_arg7 (by decide)).trans (at4_arg7 m ρ c)

theorem at1_arg9 : W1 m ρ c (Proc.devRef .tc main_arg9) = (m ((c : Thread nD τ).loc main_arg9)) := by
  show StableHlo.after hostOps0 (W0 m ρ c) (Proc.devRef .tc main_arg9) = _
  after_results_simp
  try rfl
theorem at2_arg9 : W2 m ρ c (Proc.devRef .tc main_arg9) = (m ((c : Thread nD τ).loc main_arg9)) :=
  (W2_of_ne m ρ c main_arg9 (by decide)).trans (at1_arg9 m ρ c)
theorem at4_arg9 : W4 m ρ c (Proc.devRef .tc main_arg9) = (m ((c : Thread nD τ).loc main_arg9)) := by
  show StableHlo.after hostOps1_1 (StableHlo.after hostOps1 (W2 m ρ c)) (Proc.devRef .tc main_arg9) = _
  after_results_simp
  exact at2_arg9 m ρ c
theorem at5_arg9 : W5 m ρ c (Proc.devRef .tc main_arg9) = (m ((c : Thread nD τ).loc main_arg9)) :=
  (W5_of_ne m ρ c main_arg9 (by decide)).trans (at4_arg9 m ρ c)

theorem at1_arg8 : W1 m ρ c (Proc.devRef .tc main_arg8) = (m ((c : Thread nD τ).loc main_arg8)) := by
  show StableHlo.after hostOps0 (W0 m ρ c) (Proc.devRef .tc main_arg8) = _
  after_results_simp
  try rfl
theorem at2_arg8 : W2 m ρ c (Proc.devRef .tc main_arg8) = (m ((c : Thread nD τ).loc main_arg8)) :=
  (W2_of_ne m ρ c main_arg8 (by decide)).trans (at1_arg8 m ρ c)
theorem at4_arg8 : W4 m ρ c (Proc.devRef .tc main_arg8) = (m ((c : Thread nD τ).loc main_arg8)) := by
  show StableHlo.after hostOps1_1 (StableHlo.after hostOps1 (W2 m ρ c)) (Proc.devRef .tc main_arg8) = _
  after_results_simp
  exact at2_arg8 m ρ c
theorem at5_arg8 : W5 m ρ c (Proc.devRef .tc main_arg8) = (m ((c : Thread nD τ).loc main_arg8)) :=
  (W5_of_ne m ρ c main_arg8 (by decide)).trans (at4_arg8 m ρ c)
theorem at6_arg8 : W6 m ρ c (Proc.devRef .tc main_arg8) = (m ((c : Thread nD τ).loc main_arg8)) := by
  show StableHlo.after hostOps2 (W5 m ρ c) (Proc.devRef .tc main_arg8) = _
  after_results_simp
  exact at5_arg8 m ρ c

end Cert.KernelIdeal.Carried

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibDotGeneralRowCol.lean ====
/-
  A plain matrix product on the host, read at an entry, at the ideal values.

  For any dimension numbers over an [M, K] left operand, a [K, N] right operand and an [M, N] result that
  contract the left operand's second axis against the right operand's first (stated as four coordinate facts
  about the dimension numbers' operand indices, which a literal record proves by unfolding), entry (p, c) of
  the host's product of X and W is the sum over k of X p k · W k c. General in M, K, N and in both operand
  formats; nothing in it is specific to one program.
-/
import Idealize.ShloMosaic.Lib.ValueIdx
import Idealize.ShloMosaic.PureOps.Ideal.Laws

noncomputable section

namespace Cert.LibDotGeneral

open Idealize.ShloMosaic Idealize.ShloMosaic.ValueIdx

/-- For dimension numbers contracting the left operand's columns against the right operand's rows
    (the four coordinate facts hl0 … hr1 say so), entry (p, c) of the host's product is Σ_k X p k · W k c. -/
theorem dotGeneral_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision)
    (X : FVec Ideal ⟨2, ![M, K]⟩ φ₁) (W : FVec Ideal ⟨2, ![K, N]⟩ φ₂) (p : Fin M) (c : Fin N) :
    Host.dotGeneral D prec X W (ix2 p c) = ∑ k : Fin K, X (ix2 p k) * W (ix2 k c) := by
  refine (Ideal.dotGeneral_apply D prec .single X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibDotGeneral

end
-- ==== Proof.Payloads.lean ====
/-
  The three kernel bodies and the reference's three matrix products, each read at one entry.

  At the ideal values a change of float format is the identity, so each body's matrix product into a zero
  accumulator is the plain sum over the contracted axis: entry (p, q) of a row-block product is
  Σ_k X p k · W k q, and the last body adds to Σ_k P p k · Wl k 0 the one entry of its bias, which a
  [1, 1] → [512, 1] broadcast repeats down the column.  The reference's products on the host read at an entry
  as the same sums, and its bias column — a [1, 1] → [512, 1] broadcast along both axes — reads (p, 0) at (0, 0)
  too.
-/
import proofs.«159208_j17463337025660_1_alg».proof.Proof.Gen.KernelIdeal
import proofs.«159208_j17463337025660_1_alg».proof.Proof.Gen.ReferenceIdeal
import proofs.«159208_j17463337025660_1_alg».proof.Proof.Gen.KernelIdeal.Skeleton
import proofs.«159208_j17463337025660_1_alg».proof.Proof.LibMatmulRowCol
import proofs.«159208_j17463337025660_1_alg».proof.Proof.LibDotGeneralRowCol
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-- The row-block product's dimension numbers (regions 0 and 1). -/
abbrev DK := Cert.KernelIdeal.dot_S2000x128_S128x128_S2000x128_1_0_0_1_n_n
/-- The last body's dimension numbers. -/
abbrev DKf := Cert.KernelIdeal.dot_S512x128_S128x1_S512x1_1_0_0_1_n_n
/-- The reference's two [100000, 128] × [128, 128] products' dimension numbers. -/
abbrev DR := Cert.ReferenceIdeal.dot_S100000x128_S128x128_S100000x128_1_0_0_1_n_n
/-- The reference's last product's dimension numbers. -/
abbrev DRf := Cert.ReferenceIdeal.dot_S512x128_S128x1_S512x1_1_0_0_1_n_n

/-! ## Each record contracts the left operand's columns against the right operand's rows -/

theorem DK_l0 (i : _) (q : DK.contr.Idx) : (DK.lhsIdx i q 0).val = (i 0).val := by
  unfold DotDims.lhsIdx
  rw [dif_neg (show ¬(0 : Fin Cert.KernelIdeal.S2000x128.rank) ∈ DK.lhsBatch by decide), dif_pos (show (0 : Fin Cert.KernelIdeal.S2000x128.rank) ∈ DK.lhsNonContracting by decide)]
  rfl
theorem DK_l1 (i : _) (q : DK.contr.Idx) : (DK.lhsIdx i q 1).val = (q ⟨0, by decide⟩).val :=
  DK.lhsIdx_val_of_single rfl i q
theorem DK_r0 (i : _) (q : DK.contr.Idx) : (DK.rhsIdx i q 0).val = (q ⟨0, by decide⟩).val :=
  DK.rhsIdx_val_of_single rfl i q
theorem DK_r1 (i : _) (q : DK.contr.Idx) : (DK.rhsIdx i q 1).val = (i 1).val := by
  unfold DotDims.rhsIdx
  rw [dif_neg (show ¬(1 : Fin Cert.KernelIdeal.S128x128.rank) ∈ DK.rhsBatch by decide), dif_pos (show (1 : Fin Cert.KernelIdeal.S128x128.rank) ∈ DK.rhsNonContracting by decide)]
  rfl

theorem DKf_l0 (i : _) (q : DKf.contr.Idx) : (DKf.lhsIdx i q 0).val = (i 0).val := by
  unfold DotDims.lhsIdx
  rw [dif_neg (show ¬(0 : Fin Cert.KernelIdeal.S512x128.rank) ∈ DKf.lhsBatch by decide), dif_pos (show (0 : Fin Cert.KernelIdeal.S512x128.rank) ∈ DKf.lhsNonContracting by decide)]
  rfl
theorem DKf_l1 (i : _) (q : DKf.contr.Idx) : (DKf.lhsIdx i q 1).val = (q ⟨0, by decide⟩).val :=
  DKf.lhsIdx_val_of_single rfl i q
theorem DKf_r0 (i : _) (q : DKf.contr.Idx) : (DKf.rhsIdx i q 0).val = (q ⟨0, by decide⟩).val :=
  DKf.rhsIdx_val_of_single rfl i q
theorem DKf_r1 (i : _) (q : DKf.contr.Idx) : (DKf.rhsIdx i q 1).val = (i 1).val := by
  unfold DotDims.rhsIdx
  rw [dif_neg (show ¬(1 : Fin Cert.KernelIdeal.S128x1.rank) ∈ DKf.rhsBatch by decide), dif_pos (show (1 : Fin Cert.KernelIdeal.S128x1.rank) ∈ DKf.rhsNonContracting by decide)]
  rfl

theorem DR_l0 (i : _) (q : DR.contr.Idx) : (DR.lhsIdx i q 0).val = (i 0).val := by
  unfold DotDims.lhsIdx
  rw [dif_neg (show ¬(0 : Fin Cert.ReferenceIdeal.S100000x128.rank) ∈ DR.lhsBatch by decide), dif_pos (show (0 : Fin Cert.ReferenceIdeal.S100000x128.rank) ∈ DR.lhsNonContracting by decide)]
  rfl
theorem DR_l1 (i : _) (q : DR.contr.Idx) : (DR.lhsIdx i q 1).val = (q ⟨0, by decide⟩).val :=
  DR.lhsIdx_val_of_single rfl i q
theorem DR_r0 (i : _) (q : DR.contr.Idx) : (DR.rhsIdx i q 0).val = (q ⟨0, by decide⟩).val :=
  DR.rhsIdx_val_of_single rfl i q
theorem DR_r1 (i : _) (q : DR.contr.Idx) : (DR.rhsIdx i q 1).val = (i 1).val := by
  unfold DotDims.rhsIdx
  rw [dif_neg (show ¬(1 : Fin Cert.ReferenceIdeal.S128x128.rank) ∈ DR.rhsBatch by decide), dif_pos (show (1 : Fin Cert.ReferenceIdeal.S128x128.rank) ∈ DR.rhsNonContracting by decide)]
  rfl

theorem DRf_l0 (i : _) (q : DRf.contr.Idx) : (DRf.lhsIdx i q 0).val = (i 0).val := by
  unfold DotDims.lhsIdx
  rw [dif_neg (show ¬(0 : Fin Cert.ReferenceIdeal.S512x128.rank) ∈ DRf.lhsBatch by decide), dif_pos (show (0 : Fin Cert.ReferenceIdeal.S512x128.rank) ∈ DRf.lhsNonContracting by decide)]
  rfl
theorem DRf_l1 (i : _) (q : DRf.contr.Idx) : (DRf.lhsIdx i q 1).val = (q ⟨0, by decide⟩).val :=
  DRf.lhsIdx_val_of_single rfl i q
theorem DRf_r0 (i : _) (q : DRf.contr.Idx) : (DRf.rhsIdx i q 0).val = (q ⟨0, by decide⟩).val :=
  DRf.rhsIdx_val_of_single rfl i q
theorem DRf_r1 (i : _) (q : DRf.contr.Idx) : (DRf.rhsIdx i q 1).val = (i 1).val := by
  unfold DotDims.rhsIdx
  rw [dif_neg (show ¬(1 : Fin Cert.ReferenceIdeal.S128x1.rank) ∈ DRf.rhsBatch by decide), dif_pos (show (1 : Fin Cert.ReferenceIdeal.S128x1.rank) ∈ DRf.rhsNonContracting by decide)]
  rfl

/-! ## The bodies -/

/-- Region 0's body at entry (p, q) of its block: Σ_k X p k · W k q. -/
theorem pay0_apply (x0 : Vec Ideal Cert.KernelIdeal.S2000x128 .f32) (x1 : Vec Ideal Cert.KernelIdeal.S128x128 .f32) (p : Fin 2000) (q : Fin 128) :
    Cert.KernelIdeal.Gen.k0_pay1 (F := Ideal) x0 x1 (ix2 p q) = ∑ k : Fin 128, x0 (ix2 p k) * x1 (ix2 k q) := by
  unfold Cert.KernelIdeal.Gen.k0_pay1
  exact Cert.LibMatmul.matmul_rowcol DK rfl rfl DK_l0 DK_l1 DK_r0 DK_r1 _ _ p q

/-- Region 1's body at entry (p, q) of its block: the same sum (its leading shape cast is the identity). -/
theorem pay1_apply (x0 : Vec Ideal Cert.KernelIdeal.S2000x128 .f32) (x1 : Vec Ideal Cert.KernelIdeal.S128x128 .f32) (p : Fin 2000) (q : Fin 128) :
    Cert.KernelIdeal.Gen.k1_pay1 (F := Ideal) x0 x1 (ix2 p q) = ∑ k : Fin 128, x0 (ix2 p k) * x1 (ix2 k q) := by
  unfold Cert.KernelIdeal.Gen.k1_pay1
  simp only [shapeCast_self]
  exact Cert.LibMatmul.matmul_rowcol DK rfl rfl DK_l0 DK_l1 DK_r0 DK_r1 _ _ p q

/-- The last body at entry (p, u): Σ_k P p k · Wl k u plus the bias's one entry. -/
theorem pay2_apply (x0 : Vec Ideal Cert.KernelIdeal.S512x128 .f32) (x1 : Vec Ideal Cert.KernelIdeal.S128x1 .f32) (x2 : Vec Ideal Cert.KernelIdeal.S1x1 .f32)
    (p : Fin 512) (u : Fin 1) :
    Cert.KernelIdeal.Gen.k2_pay1 (F := Ideal) x0 x1 x2 (ix2 p u)
      = (∑ k : Fin 128, x0 (ix2 p k) * x1 (ix2 k u)) + x2 (ix2 0 0) := by
  unfold Cert.KernelIdeal.Gen.k2_pay1
  simp only [shapeCast_self]
  rw [addf_apply]
  refine congrArg₂ (· + ·) ?_ ?_
  · exact Cert.LibMatmul.matmul_rowcol DKf rfl rfl DKf_l0 DKf_l1 DKf_r0 DKf_r1 _ _ p u
  · refine broadcastTo_apply x2 _ (ix2 p u) (ix2 0 0) fun a => ?_
    match a with
    | ⟨0, _⟩ => rfl
    | ⟨1, _⟩ => rfl

/-! ## The reference's products and bias column -/

/-- The reference's [100000, 128] × [128, 128] product at entry (r, q). -/
theorem dotR_apply (X : FVec Ideal Cert.ReferenceIdeal.S100000x128 .f32) (W : FVec Ideal Cert.ReferenceIdeal.S128x128 .f32) (r : Fin 100000) (q : Fin 128) :
    Host.dotGeneral DR none X W (ix2 r q) = ∑ k : Fin 128, X (ix2 r k) * W (ix2 k q) :=
  Cert.LibDotGeneral.dotGeneral_rowcol DR rfl rfl DR_l0 DR_l1 DR_r0 DR_r1 none X W r q

/-- The reference's [512, 128] × [128, 1] product at entry (p, u). -/
theorem dotRf_apply (X : FVec Ideal Cert.ReferenceIdeal.S512x128 .f32) (W : FVec Ideal Cert.ReferenceIdeal.S128x1 .f32) (p : Fin 512) (u : Fin 1) :
    Host.dotGeneral DRf none X W (ix2 p u) = ∑ k : Fin 128, X (ix2 p k) * W (ix2 k u) :=
  Cert.LibDotGeneral.dotGeneral_rowcol DRf rfl rfl DRf_l0 DRf_l1 DRf_r0 DRf_r1 none X W p u

/-- A [1, 1] matrix broadcast along both axes to a [512, 1] column reads (p, u) at (0, 0). -/
theorem biasCol_apply {α : Type} (Y : (⟨2, ![1, 1]⟩ : Shape).Idx → α)
    (h : (⟨2, ![1, 1]⟩ : Shape).BroadcastsInDim ⟨2, ![512, 1]⟩ ![0, 1]) (p : Fin 512) (u : Fin 1) :
    broadcastInDim ⟨2, ![512, 1]⟩ ![0, 1] h Y (ix2 p u) = Y (ix2 0 0) := by
  refine broadcastInDim_apply ![0, 1] h Y (ix2 p u) (ix2 0 0) fun a => ?_
  match a with
  | ⟨0, _⟩ => rfl
  | ⟨1, _⟩ => rfl

end Cert.Bridge

end
-- ==== Proof.BlockProducts.lean ====
/-
  A block of rows of a matrix product, and the whole last product.

  The two projection kernels visit the 100000 rows in 50 blocks of 2000.  At a block that starts at row o the
  body sees rows o … o + 1999 of X and all of W, and what it stores is rows o … o + 1999 of X · W: entry (p, q)
  of the block is Σ_k X (o + p) k · W k q, which is entry (o + p, q) of the host's product.  The last kernel sees
  its three operands whole and stores P · Wl plus the bias entry repeated down the column, which is the
  reference's product plus its broadcast bias column.  The blocks' placements enter only through the
  coordinates of their embeddings, so each statement takes the embeddings as functions with their coordinate
  facts.
-/
import proofs.«159208_j17463337025660_1_alg».proof.Proof.Payloads

noncomputable section

namespace Cert.Bridge

open Idealize.ShloMosaic Idealize.ShloMosaic.ValueIdx

/-- Region 0's body on the row block at offset `o` is that block of the host's product. -/
theorem rowBlock0 (X : FVec Ideal Cert.ReferenceIdeal.S100000x128 .f32) (W : FVec Ideal Cert.ReferenceIdeal.S128x128 .f32) (o : Nat)
    (f0 f2 : Cert.KernelIdeal.S2000x128.Idx → Cert.KernelIdeal.S100000x128.Idx) (f1 : Cert.KernelIdeal.S128x128.Idx → Cert.KernelIdeal.S128x128.Idx)
    (h0 : ∀ y, (f0 y 0).val = o + (y 0).val ∧ (f0 y 1).val = (y 1).val)
    (h1 : ∀ y, (f1 y 0).val = (y 0).val ∧ (f1 y 1).val = (y 1).val)
    (h2 : ∀ y, (f2 y 0).val = o + (y 0).val ∧ (f2 y 1).val = (y 1).val) :
    Cert.KernelIdeal.Gen.k0_pay1 (F := Ideal) (fun y => X (f0 y)) (fun y => W (f1 y))
      = fun y => Host.dotGeneral DR none X W (f2 y) := by
  funext y
  obtain ⟨p, q, rfl⟩ : ∃ (p : Fin 2000) (q : Fin 128), y = ix2 p q := ⟨y 0, y 1, eq_ix2 y⟩
  have hp : o + p.val < 100000 := by
    have a := (h2 (ix2 p q)).1
    have b := idx2_lt0 (f2 (ix2 p q))
    have c : ((ix2 p q : Cert.KernelIdeal.S2000x128.Idx) 0).val = p.val := rfl
    omega
  have e2 : f2 (ix2 p q) = ix2 (⟨o + p.val, hp⟩ : Fin 100000) q := funext fun a => Fin.ext (by
    match a with
    | ⟨0, _⟩ => exact (h2 _).1
    | ⟨1, _⟩ => exact (h2 _).2)
  rw [e2, dotR_apply X W ⟨o + p.val, hp⟩ q, pay0_apply]
  refine Finset.sum_congr rfl fun k _ => ?_
  have e0 : f0 (ix2 p k) = ix2 (⟨o + p.val, hp⟩ : Fin 100000) k := funext fun a => Fin.ext (by
    match a with
    | ⟨0, _⟩ => exact (h0 _).1
    | ⟨1, _⟩ => exact (h0 _).2)
  have e1 : f1 (ix2 k q) = ix2 k q := funext fun a => Fin.ext (by
    match a with
    | ⟨0, _⟩ => exact (h1 _).1
    | ⟨1, _⟩ => exact (h1 _).2)
  show X (f0 (ix2 p k)) * W (f1 (ix2 k q)) = _
  rw [e0, e1]

/-- Region 1's body on the row block at offset `o` is that block of the host's product. -/
theorem rowBlock1 (X : FVec Ideal Cert.ReferenceIdeal.S100000x128 .f32) (W : FVec Ideal Cert.ReferenceIdeal.S128x128 .f32) (o : Nat)
    (f0 f2 : Cert.KernelIdeal.S2000x128.Idx → Cert.KernelIdeal.S100000x128.Idx) (f1 : Cert.KernelIdeal.S128x128.Idx → Cert.KernelIdeal.S128x128.Idx)
    (h0 : ∀ y, (f0 y 0).val = o + (y 0).val ∧ (f0 y 1).val = (y 1).val)
    (h1 : ∀ y, (f1 y 0).val = (y 0).val ∧ (f1 y 1).val = (y 1).val)
    (h2 : ∀ y, (f2 y 0).val = o + (y 0).val ∧ (f2 y 1).val = (y 1).val) :
    Cert.KernelIdeal.Gen.k1_pay1 (F := Ideal) (fun y => X (f0 y)) (fun y => W (f1 y))
      = fun y => Host.dotGeneral DR none X W (f2 y) := by
  funext y
  obtain ⟨p, q, rfl⟩ : ∃ (p : Fin 2000) (q : Fin 128), y = ix2 p q := ⟨y 0, y 1, eq_ix2 y⟩
  have hp : o + p.val < 100000 := by
    have a := (h2 (ix2 p q)).1
    have b := idx2_lt0 (f2 (ix2 p q))
    have c : ((ix2 p q : Cert.KernelIdeal.S2000x128.Idx) 0).val = p.val := rfl
    omega
  have e2 : f2 (ix2 p q) = ix2 (⟨o + p.val, hp⟩ : Fin 100000) q := funext fun a => Fin.ext (by
    match a with
    | ⟨0, _⟩ => exact (h2 _).1
    | ⟨1, _⟩ => exact (h2 _).2)
  rw [e2, dotR_apply X W ⟨o + p.val, hp⟩ q, pay1_apply]
  refine Finset.sum_congr rfl fun k _ => ?_
  have e0 : f0 (ix2 p k) = ix2 (⟨o + p.val, hp⟩ : Fin 100000) k := funext fun a => Fin.ext (by
    match a with
    | ⟨0, _⟩ => exact (h0 _).1
    | ⟨1, _⟩ => exact (h0 _).2)
  have e1 : f1 (ix2 k q) = ix2 k q := funext fun a => Fin.ext (by
    match a with
    | ⟨0, _⟩ => exact (h1 _).1
    | ⟨1, _⟩ => exact (h1 _).2)
  show X (f0 (ix2 p k)) * W (f1 (ix2 k q)) = _
  rw [e0, e1]

/-- The last body on its operands whole is the reference's product plus its bias column. -/
theorem finalBlock (P : FVec Ideal Cert.ReferenceIdeal.S512x128 .f32) (Wl : FVec Ideal Cert.ReferenceIdeal.S128x1 .f32) (B : FVec Ideal Cert.ReferenceIdeal.S1x1 .f32)
    (hb : Cert.ReferenceIdeal.S1x1.BroadcastsInDim Cert.ReferenceIdeal.S512x1 ![0, 1])
    (f0 : Cert.KernelIdeal.S512x128.Idx → Cert.KernelIdeal.S512x128.Idx) (f1 : Cert.KernelIdeal.S128x1.Idx → Cert.KernelIdeal.S128x1.Idx)
    (f2 : Cert.KernelIdeal.S1x1.Idx → Cert.KernelIdeal.S1x1.Idx) (f3 : Cert.KernelIdeal.S512x1.Idx → Cert.KernelIdeal.S512x1.Idx)
    (h0 : ∀ y, f0 y = y) (h1 : ∀ y, f1 y = y) (h2 : ∀ y, f2 y = y) (h3 : ∀ y, f3 y = y) :
    Cert.KernelIdeal.Gen.k2_pay1 (F := Ideal) (fun y => P (f0 y)) (fun y => Wl (f1 y)) (fun y => B (f2 y))
      = fun y => addf (Host.dotGeneral DRf none P Wl) (broadcastInDim Cert.ReferenceIdeal.S512x1 ![0, 1] hb B) (f3 y) := by
  funext y
  obtain ⟨p, u, rfl⟩ : ∃ (p : Fin 512) (u : Fin 1), y = ix2 p u := ⟨y 0, y 1, eq_ix2 y⟩
  rw [h3, addf_apply, dotRf_apply P Wl p u, biasCol_apply B hb p u, pay2_apply]
  simp only [h0, h1, h2]

end Cert.Bridge

end
-- ==== Proof.Region0.lean ====
/-
  Region 0: the 50 row blocks of the projection assemble into the whole product.

  Grid point t fetches rows 2000·t … 2000·t + 1999 of the left operand and the whole right operand, and writes
  its body's result back to the same rows of the output array.  By the row-block lemma that result is those rows
  of the host's product of the two arrays as the region finds them, and the 50 blocks cover every row
  (row r lies in block r / 2000), so after the region the output array is the product.
-/
import proofs.«159208_j17463337025660_1_alg».proof.Proof.Gen.KernelIdeal.Frame
import proofs.«159208_j17463337025660_1_alg».proof.Proof.BlockProducts
import Idealize.ShloMosaic.Lib.Pipeline.Value

set_option maxRecDepth 16384

noncomputable section

namespace Cert.KernelIdeal.Region0

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The host's product of the two arrays the region reads. -/
abbrev product (c : Dev nD) : S100000x128.Idx → Elt Ideal .f32 :=
  Host.dotGeneral (F := Ideal) (φ₁ := .f32) (φ₂ := .f32) DR none (V c main_arg0) (V c main_arg4)

theorem origin : (![0, 0] : Fin 2 → Nat) = fun _ => 0 := funext fun a => by fin_cases a <;> rfl

/-- The index maps over the grid: the left operand's and the output's block index is (t, 0), the right
    operand's is (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the region reads. -/
theorem flushed (c : Dev nD) (t : Fin cfg0.N) :
    (dat0 (F := Ideal) V c).flushed 2 t
      = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_maps t
  funext j
  refine congrFun (rowBlock0 (V c main_arg0) (V c main_arg4) (t.val * 2000)
    ((cfg0.win 0).blk t).view.emb ((cfg0.win 2).blk t).view.emb ((cfg0.win 1).blk t).view.emb
    (fun y => ⟨by show win0_0.index t (0 : Fin 2) * 2000 + 1 * (y 0).val = _; omega,
               by show win0_0.index t (1 : Fin 2) * 128 + 1 * (y 1).val = _; omega⟩)
    (fun y => ⟨by show win0_1.index t (0 : Fin 2) * 128 + 1 * (y 0).val = _; omega,
               by show win0_1.index t (1 : Fin 2) * 128 + 1 * (y 1).val = _; omega⟩)
    (fun y => ⟨by show win0_2.index t (0 : Fin 2) * 2000 + 1 * (y 0).val = _; omega,
               by show win0_2.index t (1 : Fin 2) * 128 + 1 * (y 1).val = _; omega⟩)) j

/-- An index of the output array is in point `t`'s block iff each coordinate is in the block's range. -/
theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Every row is in some point's block: row r in block r / 2000. -/
theorem covered (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : (i 0).val / 2000 < cfg0.N := by
    show _ < grid0.N
    rw [N_0]
    omega
  refine ⟨⟨(i 0).val / 2000, hN⟩, flush0_2 _, ?_⟩
  rw [mem_block]
  obtain ⟨-, -, -, -, e4, e5⟩ := index_maps ⟨(i 0).val / 2000, hN⟩
  have e4' : win0_2.index ⟨(i 0).val / 2000, hN⟩ (0 : Fin 2) = (i 0).val / 2000 := e4
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

/-- After the region its output array is the product of the two arrays it read. -/
theorem value (c : Dev nD) :
    (dat0 (F := Ideal) V c).arrAt 2 cfg0.N = product V c :=
  (dat0 V c).arrAt_eq_of_cover 2 _ (fun t _ => flushed V c t) covered

end Cert.KernelIdeal.Region0

end
-- ==== Proof.Region1.lean ====
/-
  Region 1: the 50 row blocks of the projection assemble into the whole product.

  Grid point t fetches rows 2000·t … 2000·t + 1999 of the left operand and the whole right operand, and writes
  its body's result back to the same rows of the output array.  By the row-block lemma that result is those rows
  of the host's product of the two arrays as the region finds them, and the 50 blocks cover every row
  (row r lies in block r / 2000), so after the region the output array is the product.
-/
import proofs.«159208_j17463337025660_1_alg».proof.Proof.Gen.KernelIdeal.Frame
import proofs.«159208_j17463337025660_1_alg».proof.Proof.BlockProducts
import Idealize.ShloMosaic.Lib.Pipeline.Value

set_option maxRecDepth 16384

noncomputable section

namespace Cert.KernelIdeal.Region1

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The host's product of the two arrays the region reads. -/
abbrev product (c : Dev nD) : S100000x128.Idx → Elt Ideal .f32 :=
  Host.dotGeneral (F := Ideal) (φ₁ := .f32) (φ₂ := .f32) DR none (V c main_v44) (V c main_arg6)

theorem origin : (![0, 0] : Fin 2 → Nat) = fun _ => 0 := funext fun a => by fin_cases a <;> rfl

/-- The index maps over the grid: the left operand's and the output's block index is (t, 0), the right
    operand's is (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays the region reads. -/
theorem flushed (c : Dev nD) (t : Fin cfg1.N) :
    (dat1 (F := Ideal) V c).flushed 2 t
      = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x128) origin]
  obtain ⟨e0, e1, e2, e3, e4, e5⟩ := index_maps t
  funext j
  refine congrFun (rowBlock1 (V c main_v44) (V c main_arg6) (t.val * 2000)
    ((cfg1.win 0).blk t).view.emb ((cfg1.win 2).blk t).view.emb ((cfg1.win 1).blk t).view.emb
    (fun y => ⟨by show win1_0.index t (0 : Fin 2) * 2000 + 1 * (y 0).val = _; omega,
               by show win1_0.index t (1 : Fin 2) * 128 + 1 * (y 1).val = _; omega⟩)
    (fun y => ⟨by show win1_1.index t (0 : Fin 2) * 128 + 1 * (y 0).val = _; omega,
               by show win1_1.index t (1 : Fin 2) * 128 + 1 * (y 1).val = _; omega⟩)
    (fun y => ⟨by show win1_2.index t (0 : Fin 2) * 2000 + 1 * (y 0).val = _; omega,
               by show win1_2.index t (1 : Fin 2) * 128 + 1 * (y 1).val = _; omega⟩)) j

/-- An index of the output array is in point `t`'s block iff each coordinate is in the block's range. -/
theorem mem_block (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- Every row is in some point's block: row r in block r / 2000. -/
theorem covered (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : (i 0).val / 2000 < cfg1.N := by
    show _ < grid1.N
    rw [N_1]
    omega
  refine ⟨⟨(i 0).val / 2000, hN⟩, flush1_2 _, ?_⟩
  rw [mem_block]
  obtain ⟨-, -, -, -, e4, e5⟩ := index_maps ⟨(i 0).val / 2000, hN⟩
  have e4' : win1_2.index ⟨(i 0).val / 2000, hN⟩ (0 : Fin 2) = (i 0).val / 2000 := e4
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    omega
  | ⟨1, _⟩ =>
    show win1_2.index ⟨(i 0).val / 2000, hN⟩ (1 : Fin 2) * 128 ≤ (i 1).val
      ∧ (i 1).val < win1_2.index ⟨(i 0).val / 2000, hN⟩ (1 : Fin 2) * 128 + 128
    omega

/-- After the region its output array is the product of the two arrays it read. -/
theorem value (c : Dev nD) :
    (dat1 (F := Ideal) V c).arrAt 2 cfg1.N = product V c :=
  (dat1 V c).arrAt_eq_of_cover 2 _ (fun t _ => flushed V c t) covered

end Cert.KernelIdeal.Region1

end
-- ==== Proof.Region2.lean ====
/-
  Region 2: the last kernel runs at one grid point on its operands whole.

  Its single point fetches the pooled matrix, the weight column and the [1, 1] bias whole and writes its body's
  result back to the whole [512, 1] output array, so after the region that array is the body's result: the
  product of the pooled matrix and the weight column plus the bias entry repeated down the column — the
  reference's last product plus its broadcast bias column, of the arrays as the region finds them.
-/
import proofs.«159208_j17463337025660_1_alg».proof.Proof.Gen.KernelIdeal.Frame
import proofs.«159208_j17463337025660_1_alg».proof.Proof.BlockProducts
import Idealize.ShloMosaic.Lib.Pipeline.Value

set_option maxRecDepth 16384

noncomputable section

namespace Cert.KernelIdeal.Region2

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The reference's last two lines on the three arrays the region reads: the product plus the bias column. -/
abbrev result (c : Dev nD) : S512x1.Idx → Elt Ideal .f32 :=
  addf (Host.dotGeneral (F := Ideal) (φ₁ := .f32) (φ₂ := .f32) DRf none (V c main_v96) (V c main_arg8))
    (broadcastInDim Cert.ReferenceIdeal.S512x1 ![0, 1] Cert.ReferenceIdeal.Facts₀.bcast_S1x1_S512x1_0_1 (V c main_v97))

theorem origin : (![0, 0] : Fin 2 → Nat) = fun _ => 0 := funext fun a => by fin_cases a <;> rfl

/-- Every window's block index at the one point is (0, 0). -/
theorem index_maps : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the point writes back is the whole result. -/
theorem flushed (c : Dev nD) (t : Fin cfg2.N) :
    (dat2 (F := Ideal) V c).flushed 3 t = ((cfg2.win 3).blk t).view.read (Elt Ideal) (result V c) := by
  show (cfg2.win 3).cut (grid2.coords t) ((dat2 V c).after 3 t) = _
  rw [after2_3]
  unfold out2_3
  rw [View.canon_unit_zero origin]
  simp only [View.ld_unit_zero (S := S512x128) origin, View.ld_unit_zero (S := S128x1) origin,
    View.ld_unit_zero (S := S1x1) origin]
  obtain ⟨e0, e1, e2, e3, e4, e5, e6, e7⟩ := index_maps t
  funext j
  refine congrFun (finalBlock (V c main_v96) (V c main_arg8) (V c main_v97) Cert.ReferenceIdeal.Facts₀.bcast_S1x1_S512x1_0_1
    ((cfg2.win 0).blk t).view.emb ((cfg2.win 1).blk t).view.emb ((cfg2.win 2).blk t).view.emb ((cfg2.win 3).blk t).view.emb
    (fun y => funext fun a => Fin.ext (by
      match a with
      | ⟨0, _⟩ => show win2_0.index t (0 : Fin 2) * 512 + 1 * (y 0).val = (y 0).val; omega
      | ⟨1, _⟩ => show win2_0.index t (1 : Fin 2) * 128 + 1 * (y 1).val = (y 1).val; omega))
    (fun y => funext fun a => Fin.ext (by
      match a with
      | ⟨0, _⟩ => show win2_1.index t (0 : Fin 2) * 128 + 1 * (y 0).val = (y 0).val; omega
      | ⟨1, _⟩ => show win2_1.index t (1 : Fin 2) * 1 + 1 * (y 1).val = (y 1).val; omega))
    (fun y => funext fun a => Fin.ext (by
      match a with
      | ⟨0, _⟩ => show win2_2.index t (0 : Fin 2) * 1 + 1 * (y 0).val = (y 0).val; omega
      | ⟨1, _⟩ => show win2_2.index t (1 : Fin 2) * 1 + 1 * (y 1).val = (y 1).val; omega))
    (fun y => funext fun a => Fin.ext (by
      match a with
      | ⟨0, _⟩ => show win2_3.index t (0 : Fin 2) * 512 + 1 * (y 0).val = (y 0).val; omega
      | ⟨1, _⟩ => show win2_3.index t (1 : Fin 2) * 1 + 1 * (y 1).val = (y 1).val; omega))) j

/-- An index of the output array is in the point's block iff each coordinate is in the block's range. -/
theorem mem_block (t : Fin cfg2.N) (i : S512x1.Idx) :
    i ∈ ((cfg2.win 3).blk t).view.set ↔ ∀ a : Fin 2, win2_3.index t a * S512x1.size a ≤ (i a).val
      ∧ (i a).val < win2_3.index t a * S512x1.size a + S512x1.size a := by
  show i ∈ ((View.whole main_v98).slice (win2_3.rect t)).set ↔ _
  rw [View.set_slice_whole, Rect.mem_set_unit]
  exact Iff.rfl

/-- The one block is the whole array. -/
theorem covered (i : S512x1.Idx) :
    ∃ t : Fin cfg2.N, (cfg2.win 3).flush t = true ∧ i ∈ ((cfg2.win 3).blk t).view.set := by
  have hi0 : (i 0).val < 512 := idx2_lt0 i
  have hi1 : (i 1).val < 1 := idx2_lt1 i
  refine ⟨t2_0, flush2_3 _, ?_⟩
  rw [mem_block]
  obtain ⟨-, -, -, -, -, -, e6, e7⟩ := index_maps t2_0
  intro a
  match a with
  | ⟨0, _⟩ =>
    show win2_3.index t2_0 (0 : Fin 2) * 512 ≤ (i 0).val ∧ (i 0).val < win2_3.index t2_0 (0 : Fin 2) * 512 + 512
    omega
  | ⟨1, _⟩ =>
    show win2_3.index t2_0 (1 : Fin 2) * 1 ≤ (i 1).val ∧ (i 1).val < win2_3.index t2_0 (1 : Fin 2) * 1 + 1
    omega

/-- After the region its output array is the result. -/
theorem value (c : Dev nD) : (dat2 (F := Ideal) V c).arrAt 3 cfg2.N = result V c :=
  (dat2 V c).arrAt_eq_of_cover 3 _ (fun t _ => flushed V c t) covered

end Cert.KernelIdeal.Region2

end
-- ==== Proof.LibLayerLayout.lean ====
/-
  Two layout facts about stacked weight matrices and a bias row, for any element type and any sizes.

  * `stack_transpose_take`: from a stack of `m` matrices of shape [a, b], transposing every matrix of the stack and then
    taking matrix `r` gives the transpose of matrix `r`: entry (j, i) of either is entry (r, i, j) of the stack.
  * `row_of_vector`: a vector of length `a` placed as the single row of a [1, a] matrix by a broadcast along the new
    leading axis is the same matrix as the vector reshaped to [1, a].
-/
import Idealize.ShloMosaic.Lib.ValueIdx
import Idealize.ShloMosaic.Lib.ValueLayout
import Idealize.ShloMosaic.Lib.Pipeline.Value

noncomputable section

namespace Idealize.ShloMosaic.LayerLayout

open Idealize.ShloMosaic Idealize.ShloMosaic.ValueIdx

variable {α : Type}

/-- Matrix `r` of a stack, read at (0, i, j) of the one-matrix slice: entry (r, i, j) of the stack. -/
theorem take_apply {m a b : ℕ} (W : (⟨3, ![m, a, b]⟩ : Shape).Idx → α) (r : ℕ)
    (hs : (⟨3, ![m, a, b]⟩ : Shape).Slices ![r, 0, 0] ⟨3, ![1, a, b]⟩) (hr : r < m) (u : Fin 1) (i : Fin a) (j : Fin b) :
    extractStridedSlice ⟨3, ![1, a, b]⟩ ![r, 0, 0] W hs (ix3 u i j) = W (ix3 ⟨r, hr⟩ i j) :=
  extractStridedSlice_apply ![r, 0, 0] W hs (ix3 u i j) (ix3 ⟨r, hr⟩ i j) fun ax => by
    match ax with
    | ⟨0, _⟩ => show r = r + u.val; omega
    | ⟨1, _⟩ => show i.val = 0 + i.val; omega
    | ⟨2, _⟩ => show j.val = 0 + j.val; omega

/-- Transposing every matrix of a stack and then taking matrix `r` is taking matrix `r` and transposing it. -/
theorem stack_transpose_take {m a b : ℕ} (W : (⟨3, ![m, a, b]⟩ : Shape).Idx → α) (r : ℕ) (hr : r < m)
    (ht : (⟨3, ![m, a, b]⟩ : Shape).Transposes [0, 2, 1] ⟨3, ![m, b, a]⟩)
    (hs : (⟨3, ![m, b, a]⟩ : Shape).Slices ![r, 0, 0] ⟨3, ![1, b, a]⟩)
    (hc : (⟨3, ![1, b, a]⟩ : Shape).ShapeCasts ⟨2, ![b, a]⟩)
    (hs' : (⟨3, ![m, a, b]⟩ : Shape).Slices ![r, 0, 0] ⟨3, ![1, a, b]⟩)
    (hc' : (⟨3, ![1, a, b]⟩ : Shape).ShapeCasts ⟨2, ![a, b]⟩)
    (ht' : (⟨2, ![a, b]⟩ : Shape).Transposes [1, 0] ⟨2, ![b, a]⟩) :
    shapeCast ⟨2, ![b, a]⟩ (extractStridedSlice ⟨3, ![1, b, a]⟩ ![r, 0, 0] (transpose ⟨3, ![m, b, a]⟩ [0, 2, 1] W ht) hs) hc
      = transpose ⟨2, ![b, a]⟩ [1, 0] (shapeCast ⟨2, ![a, b]⟩ (extractStridedSlice ⟨3, ![1, a, b]⟩ ![r, 0, 0] W hs') hc') ht' := by
  funext y
  obtain ⟨j, i, rfl⟩ : ∃ (j : Fin b) (i : Fin a), y = ix2 j i := ⟨y 0, y 1, eq_ix2 y⟩
  rw [shapeCast_1ab_ab_apply, take_apply _ r hs hr, transpose_ix3_021_apply,
    transpose_ix2_apply, shapeCast_1ab_ab_apply, take_apply _ r hs' hr]

/-- A vector as the one row of a matrix: by a broadcast along the new leading axis, or by a reshape. -/
theorem row_of_vector {a : ℕ} (x : (⟨1, ![a]⟩ : Shape).Idx → α)
    (hb : (⟨1, ![a]⟩ : Shape).BroadcastsInDim ⟨2, ![1, a]⟩ ![1])
    (hc : (⟨1, ![a]⟩ : Shape).ShapeCasts ⟨2, ![1, a]⟩) :
    broadcastInDim ⟨2, ![1, a]⟩ ![1] hb x = shapeCast ⟨2, ![1, a]⟩ x hc := by
  funext y
  obtain ⟨u, i, rfl⟩ : ∃ (u : Fin 1) (i : Fin a), y = ix2 u i := ⟨y 0, y 1, eq_ix2 y⟩
  rw [shapeCast_a_1a_apply]
  refine broadcastInDim_apply ![1] hb x (ix2 u i) (ix1 i) fun ax => ?_
  match ax with
  | ⟨0, _⟩ =>
    show i.val = if a = 1 then 0 else i.val
    split
    · have := i.isLt; omega
    · rfl

end Idealize.ShloMosaic.LayerLayout

end
-- ==== Proof.Stages.lean ====
/-
  The idealized kernel's run, boundary by boundary, against the reference's stages.

  Both programs are the same lines of host operations — the edge lists with self loops, the degree count, the
  symmetric normalisation, gather · scale · scatter-add, the bias, the rectifier, the mean pool — around three
  matrix products; the kernel computes the products in its three regions and the reference on the host.  Walking
  the kernel's run from the launch: region 0 leaves the reference's first product of the arguments
  (Region0.value); the stretch after it applies the reference's own operations to that product, the edge lists
  and the first bias, and ends at the reference's rectified layer; region 1 leaves its product with the second
  weight; the last stretch applies the reference's second aggregation and its mean pool; region 2 leaves the last
  product plus the bias column (Region2.value).  The one place where the two texts differ is the [1] → [1, 1]
  view of the last bias: a reshape in the kernel, a broadcast along a new leading axis in the reference — the
  same matrix.  No law of arithmetic beyond the three products' sums is used, so nothing here needs the inputs
  finite.
-/
import proofs.«159208_j17463337025660_1_alg».proof.Proof.Carried
import proofs.«159208_j17463337025660_1_alg».proof.Proof.Region0
import proofs.«159208_j17463337025660_1_alg».proof.Proof.Region1
import proofs.«159208_j17463337025660_1_alg».proof.Proof.Region2
import proofs.«159208_j17463337025660_1_alg».proof.Proof.LibLayerLayout

set_option maxRecDepth 16384

noncomputable section

namespace Cert.KernelIdeal.Stages

open Cert.KernelIdeal Cert.KernelIdeal.Gen Cert.KernelIdeal.Carried Cert.Bridge
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- After region 0 its output array is the reference's first product x · W1. -/
theorem stage_v4 : W2 m ρ c (Proc.devRef .tc main_v4)
    = Cert.ReferenceIdeal.Read.val_main_v4 (F := Ideal) (m ((c : Thread nD τ).loc main_arg0)) (m ((c : Thread nD τ).loc main_arg4)) := by
  refine (W2_arr m ρ c 2).trans ((Region0.value (V1 m ρ) c).trans ?_)
  show Host.dotGeneral (F := Ideal) (φ₁ := .f32) (φ₂ := .f32) DR none (W1 m ρ c (Proc.devRef .tc main_arg0)) (W1 m ρ c (Proc.devRef .tc main_arg4)) = _
  rw [at1_arg0 m ρ c, at1_arg4 m ρ c]
  rfl

set_option maxHeartbeats 2000000 in
/-- After the stretch that follows region 0 the first layer before its rectifier: aggregated and biased. -/
theorem stage_v43 : W3 m ρ c (Proc.devRef .tc main_v43)
    = Cert.ReferenceIdeal.Read.val_main_v43 (F := Ideal) (m ((c : Thread nD τ).loc main_arg0)) (m ((c : Thread nD τ).loc main_arg1)) (m ((c : Thread nD τ).loc main_arg4)) (m ((c : Thread nD τ).loc main_arg5)) := by
  show StableHlo.after hostOps1 (W2 m ρ c) (Proc.devRef .tc main_v43) = _
  rw [show StableHlo.after hostOps1 (W2 m ρ c) = _ from
    (after_cons _ _ (W2 m ρ c)).trans ((after_cons _ _ _).trans (after_cons _ _ _))]
  generalize hWo : HloOp.result _ (HloOp.result _ (HloOp.result _ (W2 m ρ c))) = Wo
  have h6 : Wo (Proc.devRef .tc main_v6) = Cert.ReferenceIdeal.Read.val_main_v6 (F := Ideal) (m ((c : Thread nD τ).loc main_arg1)) := by
    rw [← hWo]
    simp (disch := decide) only [nullary_result', binary_result', nullary_result_ne', binary_result_ne']
    rw [nullary_result_ne (y := main_v5) (F := W2 m ρ c) (r := main_v1) (h := by decide),
      nullary_result main_v5 _ _ (W2 m ρ c), at2_src m ρ c]
    try rfl
  have h7 : Wo (Proc.devRef .tc main_v7) = Cert.ReferenceIdeal.Read.val_main_v7 (F := Ideal) (m ((c : Thread nD τ).loc main_arg1)) := by
    rw [← hWo]
    simp (disch := decide) only [nullary_result', binary_result', nullary_result_ne', binary_result_ne']
    rw [binary_result_ne (y := main_v6) (r := main_v3) (h := by decide),
      binary_result_ne (y := main_v6) (r := main_v5) (h := by decide),
      nullary_result_ne (y := main_v5) (F := W2 m ρ c) (r := main_v3) (h := by decide),
      nullary_result main_v5 _ _ (W2 m ρ c), at2_dst m ρ c]
    try rfl
  have h4 : Wo (Proc.devRef .tc main_v4) = Cert.ReferenceIdeal.Read.val_main_v4 (F := Ideal) (m ((c : Thread nD τ).loc main_arg0)) (m ((c : Thread nD τ).loc main_arg4)) := by
    rw [← hWo]
    simp (disch := decide) only [nullary_result', binary_result', nullary_result_ne', binary_result_ne']
    exact stage_v4 m ρ c
  have h5 : Wo (Proc.devRef .tc main_arg5) = (m ((c : Thread nD τ).loc main_arg5)) := by
    rw [← hWo]
    simp (disch := decide) only [nullary_result', binary_result', nullary_result_ne', binary_result_ne']
    exact at2_arg5 m ρ c
  clear hWo
  after_results_simp
  simp only [h6, h7, h4, h5]
  simp only [
    Cert.ReferenceIdeal.Read.val_main_cst, Cert.ReferenceIdeal.Read.val_main_v8,
    Cert.ReferenceIdeal.Read.val_main_cst_0, Cert.ReferenceIdeal.Read.val_main_v9,
    Cert.ReferenceIdeal.Read.val_main_v10, Cert.ReferenceIdeal.Read.val_main_v11,
    Cert.ReferenceIdeal.Read.val_main_v12, Cert.ReferenceIdeal.Read.val_main_c,
    Cert.ReferenceIdeal.Read.val_main_v13, Cert.ReferenceIdeal.Read.val_main_v14,
    Cert.ReferenceIdeal.Read.val_main_c_1, Cert.ReferenceIdeal.Read.val_main_v15,
    Cert.ReferenceIdeal.Read.val_main_v16, Cert.ReferenceIdeal.Read.val_main_v17,
    Cert.ReferenceIdeal.Read.val_main_v18, Cert.ReferenceIdeal.Read.val_main_v19,
    Cert.ReferenceIdeal.Read.val_main_c_2, Cert.ReferenceIdeal.Read.val_main_v20,
    Cert.ReferenceIdeal.Read.val_main_v21, Cert.ReferenceIdeal.Read.val_main_c_3,
    Cert.ReferenceIdeal.Read.val_main_v22, Cert.ReferenceIdeal.Read.val_main_v23,
    Cert.ReferenceIdeal.Read.val_main_v24, Cert.ReferenceIdeal.Read.val_main_v25,
    Cert.ReferenceIdeal.Read.val_main_v26, Cert.ReferenceIdeal.Read.val_main_v27,
    Cert.ReferenceIdeal.Read.val_main_c_4, Cert.ReferenceIdeal.Read.val_main_v28,
    Cert.ReferenceIdeal.Read.val_main_v29, Cert.ReferenceIdeal.Read.val_main_c_5,
    Cert.ReferenceIdeal.Read.val_main_v30, Cert.ReferenceIdeal.Read.val_main_v31,
    Cert.ReferenceIdeal.Read.val_main_v32, Cert.ReferenceIdeal.Read.val_main_v33,
    Cert.ReferenceIdeal.Read.val_main_v34, Cert.ReferenceIdeal.Read.val_main_v35,
    Cert.ReferenceIdeal.Read.val_main_v36, Cert.ReferenceIdeal.Read.val_main_v37,
    Cert.ReferenceIdeal.Read.val_main_cst_6, Cert.ReferenceIdeal.Read.val_main_v38,
    Cert.ReferenceIdeal.Read.val_main_v39, Cert.ReferenceIdeal.Read.val_main_v40,
    Cert.ReferenceIdeal.Read.val_main_v41, Cert.ReferenceIdeal.Read.val_main_v42,
    Cert.ReferenceIdeal.Read.val_main_v43]
  rfl

/-- The rectifier: whatever the stretch before it left, its three operations take the maximum with zero. -/
theorem relu_result (W : Valuation τ sig (Elt Ideal)) :
    StableHlo.after hostOps1_1 W (Proc.devRef .tc main_v44)
      = maximumf (F := Ideal) (W (Proc.devRef .tc main_v43))
          (broadcastInDim S100000x128 ![] Facts₀.bcast_S_S100000x128 (constant (F := Ideal) S_ .f32 0x00000000#32)) := by
  after_results_simp
  rfl

/-- At region 1's entry its left operand is the reference's first layer: aggregated, biased, rectified. -/
theorem stage_v44 : W4 m ρ c (Proc.devRef .tc main_v44)
    = Cert.ReferenceIdeal.Read.val_main_v44 (F := Ideal) (m ((c : Thread nD τ).loc main_arg0)) (m ((c : Thread nD τ).loc main_arg1)) (m ((c : Thread nD τ).loc main_arg4)) (m ((c : Thread nD τ).loc main_arg5)) := by
  show StableHlo.after hostOps1_1 (W3 m ρ c) (Proc.devRef .tc main_v44) = _
  rw [relu_result, stage_v43 m ρ c]
  rfl

/-- After region 1 its output array is the reference's second product h · W2. -/
theorem stage_v45 : W5 m ρ c (Proc.devRef .tc main_v45)
    = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W5_arr m ρ c 2).trans ((Region1.value (V4 m ρ) c).trans ?_)
  show Host.dotGeneral (F := Ideal) (φ₁ := .f32) (φ₂ := .f32) DR none (W4 m ρ c (Proc.devRef .tc main_v44)) (W4 m ρ c (Proc.devRef .tc main_arg6)) = _
  rw [stage_v44 m ρ c, at4_arg6 m ρ c]
  rfl

set_option maxHeartbeats 2000000 in
/-- At region 2's entry its left operand is the reference's pooled matrix: the second layer aggregated, biased, summed per graph and divided by the graph's size. -/
theorem stage_v96 : W6 m ρ c (Proc.devRef .tc main_v96)
    = Cert.ReferenceIdeal.Read.val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W5 m ρ c) (Proc.devRef .tc main_v96) = _
  rw [show StableHlo.after hostOps2 (W5 m ρ c) = _ from
    (after_cons _ _ (W5 m ρ c)).trans ((after_cons _ _ _).trans (after_cons _ _ _))]
  generalize hWo : HloOp.result _ (HloOp.result _ (HloOp.result _ (W5 m ρ c))) = Wo
  have h6 : Wo (Proc.devRef .tc main_v47) = Cert.ReferenceIdeal.Read.val_main_v47 (F := Ideal) (m ((c : Thread nD τ).loc main_arg1)) := by
    rw [← hWo]
    simp (disch := decide) only [nullary_result', binary_result', nullary_result_ne', binary_result_ne']
    rw [nullary_result_ne (y := main_v46) (F := W5 m ρ c) (r := main_v1) (h := by decide),
      nullary_result main_v46 _ _ (W5 m ρ c), at5_src m ρ c]
    try rfl
  have h7 : Wo (Proc.devRef .tc main_v48) = Cert.ReferenceIdeal.Read.val_main_v48 (F := Ideal) (m ((c : Thread nD τ).loc main_arg1)) := by
    rw [← hWo]
    simp (disch := decide) only [nullary_result', binary_result', nullary_result_ne', binary_result_ne']
    rw [binary_result_ne (y := main_v47) (r := main_v3) (h := by decide),
      binary_result_ne (y := main_v47) (r := main_v46) (h := by decide),
      nullary_result_ne (y := main_v46) (F := W5 m ρ c) (r := main_v3) (h := by decide),
      nullary_result main_v46 _ _ (W5 m ρ c), at5_dst m ρ c]
    try rfl
  have h45 : Wo (Proc.devRef .tc main_v45) = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
    rw [← hWo]
    simp (disch := decide) only [nullary_result', binary_result', nullary_result_ne', binary_result_ne']
    exact stage_v45 m ρ c
  have h3 : Wo (Proc.devRef .tc main_arg3) = (m ((c : Thread nD τ).loc main_arg3)) := by
    rw [← hWo]
    simp (disch := decide) only [nullary_result', binary_result', nullary_result_ne', binary_result_ne']
    exact at5_arg3 m ρ c
  have h7a : Wo (Proc.devRef .tc main_arg7) = (m ((c : Thread nD τ).loc main_arg7)) := by
    rw [← hWo]
    simp (disch := decide) only [nullary_result', binary_result', nullary_result_ne', binary_result_ne']
    exact at5_arg7 m ρ c
  clear hWo
  after_results_simp
  simp only [h6, h7, h45, h3, h7a]
  simp only [
    Cert.ReferenceIdeal.Read.val_main_cst_7, Cert.ReferenceIdeal.Read.val_main_v49,
    Cert.ReferenceIdeal.Read.val_main_cst_8, Cert.ReferenceIdeal.Read.val_main_v50,
    Cert.ReferenceIdeal.Read.val_main_v51, Cert.ReferenceIdeal.Read.val_main_v52,
    Cert.ReferenceIdeal.Read.val_main_v53, Cert.ReferenceIdeal.Read.val_main_c_9,
    Cert.ReferenceIdeal.Read.val_main_v54, Cert.ReferenceIdeal.Read.val_main_v55,
    Cert.ReferenceIdeal.Read.val_main_c_10, Cert.ReferenceIdeal.Read.val_main_v56,
    Cert.ReferenceIdeal.Read.val_main_v57, Cert.ReferenceIdeal.Read.val_main_v58,
    Cert.ReferenceIdeal.Read.val_main_v59, Cert.ReferenceIdeal.Read.val_main_v60,
    Cert.ReferenceIdeal.Read.val_main_c_11, Cert.ReferenceIdeal.Read.val_main_v61,
    Cert.ReferenceIdeal.Read.val_main_v62, Cert.ReferenceIdeal.Read.val_main_c_12,
    Cert.ReferenceIdeal.Read.val_main_v63, Cert.ReferenceIdeal.Read.val_main_v64,
    Cert.ReferenceIdeal.Read.val_main_v65, Cert.ReferenceIdeal.Read.val_main_v66,
    Cert.ReferenceIdeal.Read.val_main_v67, Cert.ReferenceIdeal.Read.val_main_v68,
    Cert.ReferenceIdeal.Read.val_main_c_13, Cert.ReferenceIdeal.Read.val_main_v69,
    Cert.ReferenceIdeal.Read.val_main_v70, Cert.ReferenceIdeal.Read.val_main_c_14,
    Cert.ReferenceIdeal.Read.val_main_v71, Cert.ReferenceIdeal.Read.val_main_v72,
    Cert.ReferenceIdeal.Read.val_main_v73, Cert.ReferenceIdeal.Read.val_main_v74,
    Cert.ReferenceIdeal.Read.val_main_v75, Cert.ReferenceIdeal.Read.val_main_v76,
    Cert.ReferenceIdeal.Read.val_main_v77, Cert.ReferenceIdeal.Read.val_main_v78,
    Cert.ReferenceIdeal.Read.val_main_cst_15, Cert.ReferenceIdeal.Read.val_main_v79,
    Cert.ReferenceIdeal.Read.val_main_v80, Cert.ReferenceIdeal.Read.val_main_v81,
    Cert.ReferenceIdeal.Read.val_main_v82, Cert.ReferenceIdeal.Read.val_main_v83,
    Cert.ReferenceIdeal.Read.val_main_v84, Cert.ReferenceIdeal.Read.val_main_cst_16,
    Cert.ReferenceIdeal.Read.val_main_v85, Cert.ReferenceIdeal.Read.val_main_v86,
    Cert.ReferenceIdeal.Read.val_main_v87, Cert.ReferenceIdeal.Read.val_main_cst_17,
    Cert.ReferenceIdeal.Read.val_main_v88, Cert.ReferenceIdeal.Read.val_main_cst_18,
    Cert.ReferenceIdeal.Read.val_main_v89, Cert.ReferenceIdeal.Read.val_main_v90,
    Cert.ReferenceIdeal.Read.val_main_v91, Cert.ReferenceIdeal.Read.val_main_cst_19,
    Cert.ReferenceIdeal.Read.val_main_v92, Cert.ReferenceIdeal.Read.val_main_v93,
    Cert.ReferenceIdeal.Read.val_main_v94, Cert.ReferenceIdeal.Read.val_main_v95,
    Cert.ReferenceIdeal.Read.val_main_v96]
  rfl

/-- At region 2's entry its bias operand — the last bias reshaped to [1, 1] — is the reference's [1, 1] bias,
    the same vector placed as the one row of a matrix by a broadcast. -/
theorem stage_v97 : W6 m ρ c (Proc.devRef .tc main_v97) = Cert.ReferenceIdeal.Read.val_main_v98 (F := Ideal) (m ((c : Thread nD τ).loc main_arg9)) := by
  show StableHlo.after hostOps2 (W5 m ρ c) (Proc.devRef .tc main_v97) = _
  after_results_simp
  rw [at5_arg9 m ρ c]
  exact (Idealize.ShloMosaic.LayerLayout.row_of_vector (a := 1) _ _ _).symm

/-- THE KERNEL'S RESULT: after region 2 the result buffer is the reference's last stage of the arguments. -/
theorem result : W7 m ρ c (Proc.devRef .tc main_v98)
    = Cert.ReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 3).trans ((Region2.value (V6 m ρ) c).trans ?_)
  show addf (Host.dotGeneral (F := Ideal) (φ₁ := .f32) (φ₂ := .f32) DRf none (W6 m ρ c (Proc.devRef .tc main_v96)) (W6 m ρ c (Proc.devRef .tc main_arg8)))
      (broadcastInDim Cert.ReferenceIdeal.S512x1 ![0, 1] Cert.ReferenceIdeal.Facts₀.bcast_S1x1_S512x1_0_1 (W6 m ρ c (Proc.devRef .tc main_v97))) = _
  rw [stage_v96 m ρ c, stage_v97 m ρ c, at6_arg8 m ρ c]
  rfl

end Cert.KernelIdeal.Stages

end
-- ==== Proof.lean ====
/-
  A two-layer graph convolution with a mean pool and a final linear layer: the kernel against its reference.

  Both programs compute, from node features x, an edge list, a graph id per node and the weights,
      h1  = relu (Â (x · W1) + b1),    h2 = Â (h1 · W2) + b2,
      out = (mean of h2's rows per graph) · Wl + bl,
  where Â gathers each edge's source row, scales it by 1 / sqrt (deg src · deg dst) with self loops added, and
  scatter-adds it to the edge's destination.  The kernel computes the three matrix products x · W1, h1 · W2 and
  pooled · Wl in three tiled kernels (row blocks of 2000 for the first two, one block for the last, which also
  adds the bias) and everything else on the host, by the reference's own operations; the reference computes the
  products on the host too.

  At the ideal values a change of float format is the identity, a kernel's product into a zero accumulator is
  the plain sum Σ_k X p k · W k q, and so is the host's product (Payloads); a row block of the kernel's product
  is that block of the host's (BlockProducts), and the blocks cover the array (Region0, Region1, Region2).  The
  kernel's run is then read boundary by boundary (ValueRun, Carried, Stages): after each region the product's
  array holds the reference's stage, each host stretch applies the reference's own operations to it, and the
  result buffer ends at the reference's last stage of the argument arrays.  The reference's run ends at the same
  stage of its own arguments, which agree with the kernel's.  Only the products' sums are compared, term by
  term; no distributivity or cancellation is used, so the inputs' finiteness is not needed.

  The ideal pass rewrote nothing in the kernel, so the kernel is its own idealization's source read at the ideal
  values and the preservation claim is empty.  The three frames are the generated frame runs (the reference's is
  its generated run with the result dropped).
-/
import proofs.«159208_j17463337025660_1_alg».proof.Defs
import proofs.«159208_j17463337025660_1_alg».proof.Proof.Gen.Kernel
import proofs.«159208_j17463337025660_1_alg».proof.Proof.Gen.Kernel.Frame
import proofs.«159208_j17463337025660_1_alg».proof.Proof.Gen.KernelIdeal
import proofs.«159208_j17463337025660_1_alg».proof.Proof.Gen.KernelIdeal.Frame
import proofs.«159208_j17463337025660_1_alg».proof.Proof.Gen.ReferenceIdeal
import proofs.«159208_j17463337025660_1_alg».proof.Proof.Gen.ReferenceIdeal.Run
import proofs.«159208_j17463337025660_1_alg».proof.Proof.Gen.ReferenceIdeal.Read
import proofs.«159208_j17463337025660_1_alg».proof.Proof.Gen.Pre_finite_inputs
import proofs.«159208_j17463337025660_1_alg».proof.Proof.ValueRun
import proofs.«159208_j17463337025660_1_alg».proof.Proof.Stages
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end at the reference's last stage of the kernel's
    argument arrays: the kernel by its run read boundary by boundary, the reference by its generated run. -/
theorem algebraic : Cert.algebraic_KernelIdeal_ReferenceIdeal := by
  intro m ρ m' ρ' _ hagree
  refine ⟨fun c => Cert.ReferenceIdeal.Read.val_main_v100 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v100_eq, h0, h1, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
